-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x4096 : Shape := ⟨3, ![32, 128, 4096]⟩
abbrev S4096x4096 : Shape := ⟨2, ![4096, 4096]⟩
abbrev S4096 : Shape := ⟨1, ![4096]⟩
abbrev S_ : Shape := ⟨0, ![]⟩

class Facts : Prop where
  bcast_S_S32x128x4096 : S_.BroadcastsInDim S32x128x4096 (![] : Fin 0 → Fin S32x128x4096.rank)
  reducesTo_S32x128x4096_S_d0_1_2 : S32x128x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32x128x4096 .f32) (main_arg1 : FVec F S4096x4096 .f32) (main_arg2 : FVec F S4096 .f32) : IVec S_ 1 :=
  let main_v0 : FVec F S32x128x4096 .f32 := Host.absf main_arg0
  let main_cst : FVec F S_ .f32 := constant S_ .f32 0x7F800000#32
  let main_v1 : FVec F S32x128x4096 .f32 := broadcastInDim S32x128x4096 ![] bcast_S_S32x128x4096 main_cst
  let main_v2 : IVec S32x128x4096 1 := cmpf .olt main_v0 main_v1
  let main_c : IVec S_ 1 := constantI S_ 1 1#1
  let main_v3 : IVec S_ 1 := (fun x v => Host.reduce IntOp.andi x v reducesTo_S32x128x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S32x128x4096 : Shape := ⟨3, ![32, 128, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1x2048 : Shape := ⟨2, ![1, 2048]⟩
abbrev S2048x2048 : Shape := ⟨2, ![2048, 2048]⟩

abbrev nBuf : Space → Nat
  | .hbm => 7
  | .vmem => 8
  | .smem => 0
  | _ => 0

abbrev bufTy : (tb : Table) → Fin (tcTables nBuf tb) → BufTy
  | .hbm, ⟨0, _⟩ => ⟨S32x128x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S32x128x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S32x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32x128x4096_S4096x4096 : S32x128x4096.ShapeCasts S4096x4096
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S4096x4096_S32x128x4096 : S4096x4096.ShapeCasts S32x128x4096
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .f32 = 32 ∨ (Rect.block (s := S4096x4096) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S4096x4096.size a
  hwx0_3 : ∀ i : grid0.Coords, EltTy.bits .f32 = 32 ∨ (Rect.block (s := S4096x4096) S2048x2048.size (cc0_transform_3 i) (hinb0_3 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x4096 : Shape := ⟨3, ![32, 128, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S32x128x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S32x128x4096, .f32⟩
  | _, _ => ⟨S32x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S32x128x4096_S4096x4096 : S32x128x4096.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S32x128x4096 : S4096x4096.ShapeCasts S32x128x4096
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.LibBlockSum.lean ====
/-
  Sums taken block by block, and a running accumulator over the blocks.

  Every statement holds in any commutative additive monoid `M`, in particular in the extended reals, and none asks that
  a term be finite: only associativity and commutativity of `+` and `0 + a = a` are used.

  • `sum_blocks`: a sum over `T * B` consecutive indices is the sum, over the `T` blocks, of each block's sum over its `B`
    entries, entry `p` of block `t` being index `t * B + p`. `sum_blocks_of_eq` says the same of an index range of any
    length `N` with `N = T * B`.
  • `acc_eq`: an accumulator that is `z + (z + S 0)` after step `0` and grows by `z + S (n + 1)` at step `n + 1`, where
    `z = 0`, is `z + ∑ t < n + 1, S t` after step `n`. `acc_eq_of_lt` asks for the recurrence below a bound only;
    `acc_fin_eq` and `acc_fin_total` are the forms for steps indexed by `Fin T`.
  • `acc_blocks_total`: the two together: an accumulator of block sums ends at `z` plus the sum over all indices.
-/
import Mathlib.Data.EReal.Basic
import Mathlib.Algebra.BigOperators.Fin

open scoped BigOperators

namespace Cert.LibBlockSum

variable {M : Type*} [AddCommMonoid M]

/-- Entry `p` of block `t`, of `T` blocks of `B` entries, is an index below `T * B`. -/
theorem blk_lt {T B : ℕ} (t : Fin T) (p : Fin B) : t.val * B + p.val < T * B := by
  have h1 : (t.val + 1) * B ≤ T * B := Nat.mul_le_mul_right B t.isLt
  have h2 : t.val * B + p.val < (t.val + 1) * B := by
    rw [Nat.add_mul, Nat.one_mul]; exact Nat.add_lt_add_left p.isLt _
  exact lt_of_lt_of_le h2 h1

/-- A sum over `T * B` indices, block by block: `∑ r, f r = ∑ t, ∑ p, f (t * B + p)`. -/
theorem sum_blocks (T B : ℕ) (f : Fin (T * B) → M) :
    ∑ r : Fin (T * B), f r = ∑ t : Fin T, ∑ p : Fin B, f ⟨t.val * B + p.val, blk_lt t p⟩ := by
  rw [← (finProdFinEquiv (m := T) (n := B)).sum_comp f, Fintype.sum_prod_type]
  refine Finset.sum_congr rfl fun t _ => Finset.sum_congr rfl fun p _ => ?_
  refine congrArg f (Fin.ext ?_)
  rw [finProdFinEquiv_apply_val]
  show p.val + B * t.val = t.val * B + p.val
  rw [Nat.mul_comm, Nat.add_comm]

/-- The same for an index range of length `N = T * B`. -/
theorem sum_blocks_of_eq {N : ℕ} (T B : ℕ) (hN : N = T * B) (f : Fin N → M) :
    ∑ r : Fin N, f r
      = ∑ t : Fin T, ∑ p : Fin B, f ⟨t.val * B + p.val, (blk_lt t p).trans_eq hN.symm⟩ := by
  subst hN
  exact sum_blocks T B f

/-- The running accumulator, the recurrence asked for below a bound `T` only. -/
theorem acc_eq_of_lt (T : ℕ) (z : M) (hz : z = 0) (S acc : ℕ → M)
    (h0 : acc 0 = z + (z + S 0))
    (hs : ∀ n, n + 1 < T → acc (n + 1) = acc n + (z + S (n + 1))) :
    ∀ n, n < T → acc n = z + ∑ t ∈ Finset.range (n + 1), S t := by
  subst hz
  intro n
  induction n with
  | zero =>
    intro _
    rw [h0]
    simp only [zero_add, Finset.sum_range_one]
  | succ n ih =>
    intro hn
    rw [hs n hn, ih (Nat.lt_of_succ_lt hn)]
    simp only [zero_add]
    exact (Finset.sum_range_succ S (n + 1)).symm

/-- The running accumulator: from `z + (z + S 0)`, adding `z + S (n + 1)` at step `n + 1`, with `z = 0`. -/
theorem acc_eq (z : M) (hz : z = 0) (S acc : ℕ → M)
    (h0 : acc 0 = z + (z + S 0))
    (hs : ∀ n, acc (n + 1) = acc n + (z + S (n + 1))) (n : ℕ) :
    acc n = z + ∑ t ∈ Finset.range (n + 1), S t :=
  acc_eq_of_lt (n + 1) z hz S acc h0 (fun k _ => hs k) n (Nat.lt_succ_self n)

/-- The running accumulator with steps indexed by `Fin T`: after step `n` it is `z` plus the first `n + 1` terms. -/
theorem acc_fin_eq {T : ℕ} (z : M) (hz : z = 0) (S acc : Fin T → M)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩)) :
    ∀ (n : ℕ) (h : n < T),
      acc ⟨n, h⟩ = z + ∑ t : Fin (n + 1), S ⟨t.val, Nat.lt_of_lt_of_le t.isLt (Nat.succ_le_of_lt h)⟩ := by
  subst hz
  intro n
  induction n with
  | zero =>
    intro h
    rw [h0 h]
    simp only [zero_add, Fin.sum_univ_castSucc, Fin.sum_univ_zero]
    rfl
  | succ n ih =>
    intro h
    rw [hs n h, ih (Nat.lt_of_succ_lt h), Fin.sum_univ_castSucc (n := n + 1)]
    simp only [zero_add]
    rfl

/-- The running accumulator over all `T = n + 1` steps: after the last step it is `z` plus the sum of all terms. -/
theorem acc_fin_total {T : ℕ} (z : M) (hz : z = 0) (S acc : Fin T → M)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩))
    (n : ℕ) (hT : T = n + 1) :
    acc ⟨n, hT ▸ Nat.lt_succ_self n⟩ = z + ∑ t : Fin T, S t := by
  subst hT
  exact acc_fin_eq z hz S acc h0 hs n (Nat.lt_succ_self n)

/-- An accumulator of block sums: if step `t` adds the sum of block `t` of `f`, then after the last of the `T = n + 1`
    steps the accumulator is `z` plus the sum of `f` over all `N = T * B` indices. -/
theorem acc_blocks_total {N : ℕ} (T B : ℕ) (hN : N = T * B) (z : M) (hz : z = 0) (f : Fin N → M) (S acc : Fin T → M)
    (hS : ∀ t : Fin T, S t = ∑ p : Fin B, f ⟨t.val * B + p.val, (blk_lt t p).trans_eq hN.symm⟩)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩))
    (n : ℕ) (hT : T = n + 1) :
    acc ⟨n, hT ▸ Nat.lt_succ_self n⟩ = z + ∑ r : Fin N, f r := by
  rw [acc_fin_total z hz S acc h0 hs n hT, sum_blocks_of_eq T B hN f]
  exact congrArg (z + ·) (Finset.sum_congr rfl fun t _ => hS t)

/-- The shape of use: 50000 rows in 25 blocks of 2000, in the extended reals. -/
example (f : Fin 50000 → EReal) :
    ∑ r : Fin 50000, f r = ∑ t : Fin 25, ∑ p : Fin 2000, f ⟨t.val * 2000 + p.val, (blk_lt t p).trans_eq (by norm_num)⟩ :=
  sum_blocks_of_eq 25 2000 (by norm_num) f

end Cert.LibBlockSum
-- ==== Proof.Linear.lean ====
/-
  The linear layer as one function of its three arrays, and the one law that joins its two computations.

  For X and W of shape [4096, 4096] and a bias row B of shape [1, 4096] over the extended reals,

      linear X W B (n, o) = (∑ k < 4096, X (n, k) · W (o, k)) + B (0, o).

  A computation that walks the contraction axis in 8 blocks of 512 columns, starts from 0 and adds one block's partial
  sum at a time, ends at the same sum over all 4096 columns. Only associativity and commutativity of + and 0 + a = a are
  used, which hold for every extended real: no entry has to be finite.
-/
import Idealize.ShloMosaic.PureOps.Ideal
import Idealize.ShloMosaic.Lib.ValueIdx
import proofs.«122407_j12249246728781_2_alg».proof.Proof.LibBlockSum

noncomputable section

namespace Cert.Linear

open Idealize.ShloMosaic Idealize.ShloMosaic.ValueIdx
open scoped BigOperators

/-- Column `p` of block `q` of the contraction axis: column `q · 512 + p`. -/
abbrev col (q : Fin 8) (p : Fin 512) : Fin 4096 :=
  ⟨q.val * 512 + p.val, by have := q.isLt; have := p.isLt; omega⟩

/-- Column `k`'s contribution to row `R` of `X` against row `C` of `W`. -/
def rowProd (X W : (⟨2, ![4096, 4096]⟩ : Shape).Idx → EReal) (R C : Fin 4096) : Fin 4096 → EReal :=
  fun k => X (ix2 R k) * W (ix2 C k)

/-- The linear layer: row `n` of `X` against row `o` of `W`, plus the bias at `o`. -/
def linear (X W : (⟨2, ![4096, 4096]⟩ : Shape).Idx → EReal) (B : (⟨2, ![1, 4096]⟩ : Shape).Idx → EReal) :
    (⟨2, ![4096, 4096]⟩ : Shape).Idx → EReal :=
  fun i => (∑ k : Fin 4096, X (ix2 (i 0) k) * W (ix2 (i 1) k)) + B (ix2 0 (i 1))

/-- At an entry (R, C) the linear layer is the sum of the row product plus the bias at C. -/
theorem linear_apply (X W : (⟨2, ![4096, 4096]⟩ : Shape).Idx → EReal) (B : (⟨2, ![1, 4096]⟩ : Shape).Idx → EReal)
    (R C : Fin 4096) : linear X W B (ix2 R C) = (∑ k : Fin 4096, rowProd X W R C k) + B (ix2 0 C) := rfl

/-- The partial sum of `f` over block `q`. -/
def part (f : Fin 4096 → EReal) (q : Fin 8) : EReal := ∑ p : Fin 512, f (col q p)

/-- An accumulator that is `0 + part f 0` after the first block and grows by `part f (n + 1)` at block `n + 1` holds, after
    the eighth block, the sum of `f` over all 4096 columns. -/
theorem acc_total (f : Fin 4096 → EReal) (acc : Fin 8 → EReal)
    (h0 : acc ⟨0, by norm_num⟩ = 0 + part f ⟨0, by norm_num⟩)
    (hs : ∀ n (h : n + 1 < 8), acc ⟨n + 1, h⟩ = acc ⟨n, Nat.lt_of_succ_lt h⟩ + part f ⟨n + 1, h⟩) :
    acc ⟨7, by norm_num⟩ = ∑ r : Fin 4096, f r := by
  have h := Cert.LibBlockSum.acc_blocks_total (N := 4096) 8 512 (by norm_num) (0 : EReal) rfl f (part f) acc
    (fun _ => rfl) (fun _ => by rw [zero_add]; exact h0) (fun n h => by rw [zero_add]; exact hs n h) 7 rfl
  rw [zero_add] at h
  exact h

end Cert.Linear

end
-- ==== Proof.Payloads.lean ====
/-
  The three values the kernel body stores into its output block, read at an entry (r, c) over the extended reals.

  The body works on a block x₀ of 2048 rows of X and 512 columns of the contraction axis, a block x₁ of 2048 rows of W
  and the same 512 columns, and a bias row b of 2048 entries:
    • at the first of a group of eight points it stores 0;
    • at every point it stores  acc (r, c) + ∑ k < 512, x₀ (r, k) · x₁ (c, k)  over what the block held (acc): the
      rounding of both operands to bf16 is the identity on the extended reals, and the product contracts the second
      axis of BOTH operands, into an accumulator that is 0;
    • at the last point of the group it then stores  v (r, c) + b (0, c).
-/
import proofs.«122407_j12249246728781_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-- The block product's dimension numbers: rows of the left operand against rows of the right, both contracted along
    their second axis. -/
abbrev D : DotDims S2048x512 S2048x512 S2048x2048 := dot_S2048x512_S2048x512_S2048x2048_1_1_0_0_n_n

/-- The reset value is 0 at every entry. -/
theorem reset_apply (y : S2048x2048.Idx) : k0_pay1 (F := Ideal) y = 0 :=
  Ideal.ofBits_zero_f32

/-- The left operand is read at the output's row … -/
theorem lhs_row (j : S2048x2048.Idx) (q : D.contr.Idx) : (D.lhsIdx j q 0).val = (j 0).val := by
  unfold DotDims.lhsIdx
  rw [dif_neg (show ¬(0 : Fin S2048x512.rank) ∈ D.lhsBatch by decide),
    dif_pos (show (0 : Fin S2048x512.rank) ∈ D.lhsNonContracting by decide)]
  rfl
/-- … and the contracted column; -/
theorem lhs_col (j : S2048x2048.Idx) (q : D.contr.Idx) : (D.lhsIdx j q 1).val = (q ⟨0, by decide⟩).val :=
  D.lhsIdx_val_of_single rfl j q
/-- the right operand at the output's COLUMN, as its row, … -/
theorem rhs_row (j : S2048x2048.Idx) (q : D.contr.Idx) : (D.rhsIdx j q 0).val = (j 1).val := by
  unfold DotDims.rhsIdx
  rw [dif_neg (show ¬(0 : Fin S2048x512.rank) ∈ D.rhsBatch by decide),
    dif_pos (show (0 : Fin S2048x512.rank) ∈ D.rhsNonContracting by decide)]
  rfl
/-- … and the same contracted column. -/
theorem rhs_col (j : S2048x2048.Idx) (q : D.contr.Idx) : (D.rhsIdx j q 1).val = (q ⟨0, by decide⟩).val :=
  D.rhsIdx_val_of_single rfl j q

/-- The block product into the zero accumulator, at (r, c): row r of the left operand against row c of the right. -/
theorem product_apply (a b : FVec Ideal S2048x512 .bf16) (r cc : Fin 2048) :
    FloatOps.matmul D none a b (constant (F := Ideal) S2048x2048 .f32 0x00000000#32) (ix2 r cc)
      = ∑ k : Fin 512, a (ix2 r k) * b (ix2 cc k) := by
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r cc) ((contrEquiv1 D 512 rfl rfl).symm k) = ix2 r k := funext fun ax => Fin.ext (by
    match ax with
    | ⟨0, _⟩ => exact lhs_row _ _
    | ⟨1, _⟩ => exact (lhs_col _ _).trans hk)
  have er : D.rhsIdx (ix2 r cc) ((contrEquiv1 D 512 rfl rfl).symm k) = ix2 cc k := funext fun ax => Fin.ext (by
    match ax with
    | ⟨0, _⟩ => exact rhs_row _ _
    | ⟨1, _⟩ => exact (rhs_col _ _).trans hk)
  rw [el, er]

/-- One step: what the block held plus the block product. -/
theorem step_apply (x0 x1 : Vec Ideal S2048x512 .f32) (acc : Vec Ideal S2048x2048 .f32) (r cc : Fin 2048) :
    k0_pay2 (F := Ideal) x0 x1 acc (ix2 r cc) = acc (ix2 r cc) + ∑ k : Fin 512, x0 (ix2 r k) * x1 (ix2 cc k) := by
  unfold k0_pay2
  refine (congrArg₂ (· + ·) (congrFun (shapeCast_self acc shapeCasts_S2048x2048_S2048x2048) (ix2 r cc))
    (product_apply _ _ r cc)).trans ?_
  rw [shapeCast_self]
  rfl

/-- The last store: the block plus the bias row, the same row for every r. -/
theorem bias_apply (v : Vec Ideal S2048x2048 .f32) (b : Vec Ideal S1x2048 .f32) (r cc : Fin 2048) :
    k0_pay3 (F := Ideal) v b (ix2 r cc) = v (ix2 r cc) + b (ix2 (0 : Fin 1) cc) := by
  unfold k0_pay3
  refine (congrArg₂ (· + ·) (congrFun (shapeCast_self v shapeCasts_S2048x2048_S2048x2048) (ix2 r cc))
    (broadcastTo_1b_ab_apply _ broadcasts_S1x2048_S2048x2048 r cc)).trans ?_
  rw [shapeCast_self]

end Cert.KernelIdeal.Payloads

end
-- ==== Proof.Blocks.lean ====
/-
  Where the grid's points sit, and what each input block holds.

  The grid has 2 × 2 × 8 = 32 points, the last axis fastest: point t has row-block  t / 16, column-block  t / 8 % 2
  and contraction-block  t % 8. At point t
    • the block of X (2048 × 512) starts at row (t / 16) · 2048 and column (t % 8) · 512,
    • the block of W (2048 × 512) starts at row (t / 8 % 2) · 2048 and column (t % 8) · 512,
    • the block of the bias row (1 × 2048) starts at column (t / 8 % 2) · 2048,
    • the output block (2048 × 2048) starts at row (t / 16) · 2048 and column (t / 8 % 2) · 2048.
  An entry of a block is the array's entry at block start + position inside the block.
-/
import proofs.«122407_j12249246728781_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The four windows' block indices at every point of the grid. -/
theorem place : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

/-- Entry (r, p) of the block of X at point t is X at (R, K), R and K the block's start plus r and p. -/
theorem x_apply (c : Dev nD) (t : Fin cfg0.N) (r : Fin 2048) (p : Fin 512) (R K : Fin 4096)
    (hR : R.val = t.val / 16 * 2048 + r.val) (hK : K.val = t.val % 8 * 512 + p.val) :
    (iblk m c 0 t : Vec F S2048x512 .f32) (ix2 r p) = V m c main_v0 (ix2 R K) := by
  unfold iblk
  rw [View.read_apply]
  show V m c main_v0 (((cfg0.win 0).blk t).view.emb (ix2 r p)) = V m c main_v0 (ix2 R K)
  obtain ⟨e0, e1, -⟩ := place t
  refine congrArg (V m c main_v0) (funext fun a => Fin.ext ?_)
  match a with
  | ⟨0, _⟩ => show win0_0.index t (0 : Fin 2) * 2048 + 1 * r.val = R.val; omega
  | ⟨1, _⟩ => show win0_0.index t (1 : Fin 2) * 512 + 1 * p.val = K.val; omega

/-- Entry (s, p) of the block of W at point t is W at (R, K). -/
theorem w_apply (c : Dev nD) (t : Fin cfg0.N) (s : Fin 2048) (p : Fin 512) (R K : Fin 4096)
    (hR : R.val = t.val / 8 % 2 * 2048 + s.val) (hK : K.val = t.val % 8 * 512 + p.val) :
    (iblk m c 1 t : Vec F S2048x512 .f32) (ix2 s p) = V m c main_arg1 (ix2 R K) := by
  unfold iblk
  rw [View.read_apply]
  show V m c main_arg1 (((cfg0.win 1).blk t).view.emb (ix2 s p)) = V m c main_arg1 (ix2 R K)
  obtain ⟨-, -, e2, e3, -⟩ := place t
  refine congrArg (V m c main_arg1) (funext fun a => Fin.ext ?_)
  match a with
  | ⟨0, _⟩ => show win0_1.index t (0 : Fin 2) * 2048 + 1 * s.val = R.val; omega
  | ⟨1, _⟩ => show win0_1.index t (1 : Fin 2) * 512 + 1 * p.val = K.val; omega

/-- Entry (0, s) of the block of the bias row at point t is the row at (0, R). -/
theorem b_apply (c : Dev nD) (t : Fin cfg0.N) (s : Fin 2048) (R : Fin 4096)
    (hR : R.val = t.val / 8 % 2 * 2048 + s.val) :
    (iblk m c 2 t : Vec F S1x2048 .f32) (ix2 (0 : Fin 1) s) = V m c main_v1 (ix2 (0 : Fin 1) R) := by
  unfold iblk
  rw [View.read_apply]
  show V m c main_v1 (((cfg0.win 2).blk t).view.emb (ix2 (0 : Fin 1) s)) = V m c main_v1 (ix2 (0 : Fin 1) R)
  obtain ⟨-, -, -, -, e4, e5, -⟩ := place t
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 2048 + 1 * s.val = R.val; omega

/-- Entry (r, s) of the output block at point t sits at (R, C) of the output array. -/
theorem out_emb (t : Fin cfg0.N) (r s : Fin 2048) (R C : Fin 4096)
    (hR : R.val = t.val / 16 * 2048 + r.val) (hC : C.val = t.val / 8 % 2 * 2048 + s.val) :
    ((cfg0.win 3).blk t).view.emb (ix2 r s) = ix2 R C := by
  obtain ⟨-, -, -, -, -, -, e6, e7⟩ := place t
  refine funext fun a => Fin.ext ?_
  match a with
  | ⟨0, _⟩ => show win0_3.index t (0 : Fin 2) * 2048 + 1 * r.val = R.val; omega
  | ⟨1, _⟩ => show win0_3.index t (1 : Fin 2) * 2048 + 1 * s.val = C.val; omega

end Cert.KernelIdeal.Blocks

end
-- ==== Proof.Cases.lean ====
/-
  What one run of the kernel body leaves in the output block, in each of its three control cases, as a term over the
  body's stored values (for any float instance).

  The grid's last axis walks the contraction axis in eight points. With x₀, x₁ the point's blocks of X and W, b its bias
  row and acc what the output block held when the body started:
    • first point of the eight: the body stores the reset value, reads it back, and leaves  step x₀ x₁ reset;
    • a middle point: it leaves  step x₀ x₁ acc;
    • last point: it stores  step x₀ x₁ acc, reads that back, and leaves  withBias (step x₀ x₁ acc) b.
  Every store and load goes through the whole block at offset (0, 0), so a load after a store reads the stored value and
  the last store is what remains.
-/
import proofs.«122407_j12249246728781_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem
open Idealize.ShloMosaic.Tactic

variable {F : FTy → Type} [FloatOps F]

/-- Every access of the body starts at the block's origin. -/
theorem origin : (![0, 0] : Fin 2 → Nat) = fun _ => 0 := funext fun a => by fin_cases a <;> rfl

/-- A middle point leaves the step over what the block held. -/
theorem middle (c : Dev nD) (i : grid0.Coords) (a3 : Memref sig .tc .vmem S2048x512 .f32) (h3 : a3.IsWhole)
    (a4 : Memref sig .tc .vmem S2048x512 .f32) (h4 : a4.IsWhole) (a5 : Memref sig .tc .vmem S1x2048 .f32) (h5 : a5.IsWhole)
    (a6 : Memref sig .tc .vmem S2048x2048 .f32) (h6 : a6.IsWhole) (hc0 : ¬cond0_0 i) (hc1 : ¬cond0_1 i)
    (x0 x1 : Vec F S2048x512 .f32) (x2 : Vec F S1x2048 .f32) (xo : Vec F S2048x2048 .f32) :
    out0_B_3 c i a3 h3 a4 h4 a5 h5 a6 h6 hc0 hc1 x0 x1 x2 xo = k0_pay2 x0 x1 xo := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero origin]
  simp only [View.readAt_eq_ld, h3.read_unread, h4.read_unread, h6.read_unread,
    View.ld_unit_zero (S := S2048x512) origin, View.ld_unit_zero (S := S2048x2048) origin]

/-- The first point of a group leaves the step over the reset value. -/
theorem first (c : Dev nD) (i : grid0.Coords) (a3 : Memref sig .tc .vmem S2048x512 .f32) (h3 : a3.IsWhole)
    (a4 : Memref sig .tc .vmem S2048x512 .f32) (h4 : a4.IsWhole) (a5 : Memref sig .tc .vmem S1x2048 .f32) (h5 : a5.IsWhole)
    (a6 : Memref sig .tc .vmem S2048x2048 .f32) (h6 : a6.IsWhole) (hc0 : cond0_0 i) (hc1 : ¬cond0_1 i)
    (x0 x1 : Vec F S2048x512 .f32) (x2 : Vec F S1x2048 .f32) :
    out0_A_3 c i a3 h3 a4 h4 a5 h5 a6 h6 hc0 hc1 x0 x1 x2 = k0_pay2 x0 x1 k0_pay1 := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S2048x2048) origin, View.readCov_unit_zero (S := S2048x2048) _ origin]
  simp only [View.readAt_eq_ld, h3.read_unread, h4.read_unread, View.ld_unit_zero (S := S2048x512) origin]

/-- The last point of a group leaves the step over what the block held, with the bias row added. -/
theorem last (c : Dev nD) (i : grid0.Coords) (a3 : Memref sig .tc .vmem S2048x512 .f32) (h3 : a3.IsWhole)
    (a4 : Memref sig .tc .vmem S2048x512 .f32) (h4 : a4.IsWhole) (a5 : Memref sig .tc .vmem S1x2048 .f32) (h5 : a5.IsWhole)
    (a6 : Memref sig .tc .vmem S2048x2048 .f32) (h6 : a6.IsWhole) (hc0 : ¬cond0_0 i) (hc1 : cond0_1 i)
    (x0 x1 : Vec F S2048x512 .f32) (x2 : Vec F S1x2048 .f32) (xo : Vec F S2048x2048 .f32) :
    out0_C_3 c i a3 h3 a4 h4 a5 h5 a6 h6 hc0 hc1 x0 x1 x2 xo = k0_pay3 (k0_pay2 x0 x1 xo) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S2048x2048) origin, View.readCov_unit_zero (S := S2048x2048) _ origin]
  simp only [View.readAt_eq_ld, h3.read_unread, h4.read_unread, h5.read_unread, h6.read_unread,
    View.ld_unit_zero (S := S2048x512) origin, View.ld_unit_zero (S := S2048x2048) origin,
    View.ld_unit_zero (S := S1x2048) origin]

end Cert.KernelIdeal.Cases

end
-- ==== Proof.Chain.lean ====
/-
  The output block after each grid point, as a chain of the body's stored values (for any float instance).

  Points come in groups of eight (one group per output block, the contraction axis walked inside it). Write step, reset,
  withBias for the body's three stored values. Then after point n the output block holds
      chain n                       when n is not the last of its group,
      withBias (chain n) (bias row)  when it is,
  where  chain n = step x₀ x₁ reset  at the first point of a group and  chain n = step x₀ x₁ (chain (n − 1))  otherwise,
  x₀ and x₁ being point n's blocks of X and W. By induction on the point: a point that is not first in its group follows
  a point that is not last, so what it finds in the block is chain (n − 1).
-/
import proofs.«122407_j12249246728781_2_alg».proof.Proof.Cases

noncomputable section

namespace Cert.KernelIdeal.Chain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- After the first point of a group: the step over the reset value. -/
theorem at_first (c : Dev nD) (t : Fin cfg0.N) (h0 : t.val % 8 = 0) (h1 : ¬t.val % 8 = 7) :
    outsAt0 m c t.val t.isLt = k0_pay2 (iblk m c 0 t) (iblk m c 1 t) k0_pay1 :=
  (outsAt0_A m c t h0 h1).trans (Cases.first c (grid0.coords t) (ms0_0 t) (hs0_0 t) (ms0_1 t) (hs0_1 t) (ms0_2 t) (hs0_2 t) (ms0_3 t) (hs0_3 t) _ _
      (iblk m c 0 t) (iblk m c 1 t) (iblk m c 2 t))

/-- After a middle point: the step over what the point before left. -/
theorem at_middle (c : Dev nD) (t : Fin cfg0.N) (h0 : ¬t.val % 8 = 0) (h1 : ¬t.val % 8 = 7) :
    outsAt0 m c t.val t.isLt = k0_pay2 (iblk m c 0 t) (iblk m c 1 t)
      (outsAt0 m c (t.val - 1) (Nat.lt_of_le_of_lt (Nat.sub_le _ _) t.isLt)) :=
  (outsAt0_B m c t h0 h1).trans (Cases.middle c (grid0.coords t) (ms0_0 t) (hs0_0 t) (ms0_1 t) (hs0_1 t) (ms0_2 t) (hs0_2 t) (ms0_3 t) (hs0_3 t) _ _
      (iblk m c 0 t) (iblk m c 1 t) (iblk m c 2 t)
      (outsAt0 m c (t.val - 1) (Nat.lt_of_le_of_lt (Nat.sub_le _ _) t.isLt)))

/-- After the last point of a group: that step, with the bias row added. -/
theorem at_last (c : Dev nD) (t : Fin cfg0.N) (h0 : ¬t.val % 8 = 0) (h1 : t.val % 8 = 7) :
    outsAt0 m c t.val t.isLt = k0_pay3 (k0_pay2 (iblk m c 0 t) (iblk m c 1 t)
      (outsAt0 m c (t.val - 1) (Nat.lt_of_le_of_lt (Nat.sub_le _ _) t.isLt))) (iblk m c 2 t) :=
  (outsAt0_C m c t h0 h1).trans (Cases.last c (grid0.coords t) (ms0_0 t) (hs0_0 t) (ms0_1 t) (hs0_1 t) (ms0_2 t) (hs0_2 t) (ms0_3 t) (hs0_3 t) _ _
      (iblk m c 0 t) (iblk m c 1 t) (iblk m c 2 t)
      (outsAt0 m c (t.val - 1) (Nat.lt_of_le_of_lt (Nat.sub_le _ _) t.isLt)))

/-- The accumulator before any bias is added: reset at the first point of each group, carried otherwise. -/
def chain (c : Dev nD) : (n : ℕ) → n < cfg0.N → Vec F S2048x2048 .f32
  | 0, h => k0_pay2 (iblk m c 0 ⟨0, h⟩) (iblk m c 1 ⟨0, h⟩) k0_pay1
  | n + 1, h => k0_pay2 (iblk m c 0 ⟨n + 1, h⟩) (iblk m c 1 ⟨n + 1, h⟩)
      (if (n + 1) % 8 = 0 then k0_pay1 else chain c n (Nat.lt_of_succ_lt h))

/-- At the first point of a group the chain restarts from the reset value; -/
theorem chain_first (c : Dev nD) : ∀ (n : ℕ) (h : n < cfg0.N), n % 8 = 0 →
    chain m c n h = k0_pay2 (iblk m c 0 ⟨n, h⟩) (iblk m c 1 ⟨n, h⟩) k0_pay1
  | 0, _, _ => rfl
  | n + 1, h, h0 => by
    show k0_pay2 _ _ (if (n + 1) % 8 = 0 then k0_pay1 else chain m c n _) = _
    rw [if_pos h0]

/-- elsewhere it continues the point before. -/
theorem chain_next (c : Dev nD) : ∀ (n : ℕ) (h : n < cfg0.N), ¬n % 8 = 0 →
    chain m c n h = k0_pay2 (iblk m c 0 ⟨n, h⟩) (iblk m c 1 ⟨n, h⟩)
      (chain m c (n - 1) (Nat.lt_of_le_of_lt (Nat.sub_le _ _) h))
  | 0, _, h0 => absurd (Nat.zero_mod 8) h0
  | n + 1, h, h0 => by
    show k0_pay2 _ _ (if (n + 1) % 8 = 0 then k0_pay1 else chain m c n _) = _
    rw [if_neg h0]
    rfl

/-- The same, at a successor. -/
theorem chain_succ (c : Dev nD) (n : ℕ) (h : n + 1 < cfg0.N) (h0 : ¬(n + 1) % 8 = 0) :
    chain m c (n + 1) h = k0_pay2 (iblk m c 0 ⟨n + 1, h⟩) (iblk m c 1 ⟨n + 1, h⟩)
      (chain m c n (Nat.lt_of_succ_lt h)) := by
  show k0_pay2 _ _ (if (n + 1) % 8 = 0 then k0_pay1 else chain m c n _) = _
  rw [if_neg h0]

/-- The chain depends on the point's number only. -/
theorem chain_congr (c : Dev nD) (n n' : ℕ) (h : n < cfg0.N) (h' : n' < cfg0.N) (e : n = n') :
    chain m c n h = chain m c n' h' := by
  subst e; rfl

/-- What the output block holds after point n. -/
theorem outsAt_eq (c : Dev nD) : ∀ (n : ℕ) (h : n < cfg0.N),
    outsAt0 m c n h = if n % 8 = 7 then k0_pay3 (chain m c n h) (iblk m c 2 ⟨n, h⟩) else chain m c n h
  | 0, h => by
    rw [if_neg (by decide)]
    exact at_first m c ⟨0, h⟩ rfl (by show ¬0 % 8 = 7; decide)
  | n + 1, h => by
    have ih := outsAt_eq c n (Nat.lt_of_succ_lt h)
    by_cases h0 : (n + 1) % 8 = 0
    · have h1 : ¬(n + 1) % 8 = 7 := by omega
      rw [if_neg h1, chain_first m c (n + 1) h h0]
      exact at_first m c ⟨n + 1, h⟩ h0 h1
    · rw [if_neg (by omega : ¬n % 8 = 7)] at ih
      rw [chain_next m c (n + 1) h h0]
      by_cases h1 : (n + 1) % 8 = 7
      · rw [if_pos h1, at_last m c ⟨n + 1, h⟩ h0 h1]
        show k0_pay3 (k0_pay2 _ _ (outsAt0 m c n _)) _ = k0_pay3 (k0_pay2 _ _ (chain m c n _)) _
        rw [ih]
      · rw [if_neg h1, at_middle m c ⟨n + 1, h⟩ h0 h1]
        show k0_pay2 _ _ (outsAt0 m c n _) = k0_pay2 _ _ (chain m c n _)
        rw [ih]

end Cert.KernelIdeal.Chain

end
-- ==== Proof.Accumulate.lean ====
/-
  The output block when it is written back, over the extended reals.

  Fix an output entry: row R of X against row C of W, and write  term k = X (R, k) · W (C, k). Inside one group of eight
  points the chain's value at that entry is an accumulator over the eight blocks of the contraction axis:
      0 + (block 0's partial sum of term)  after the first point,   plus block q's partial sum after point q.
  So after the eighth point it is  ∑ k < 4096, term k  (the block-sum law), and what the last point leaves, with the bias
  row added, is the linear layer at (R, C).
-/
import proofs.«122407_j12249246728781_2_alg».proof.Proof.Linear
import proofs.«122407_j12249246728781_2_alg».proof.Proof.Payloads
import proofs.«122407_j12249246728781_2_alg».proof.Proof.Blocks
import proofs.«122407_j12249246728781_2_alg».proof.Proof.Chain

noncomputable section

namespace Cert.KernelIdeal.Accumulate

open Cert.KernelIdeal Cert.KernelIdeal.Gen Idealize.ShloMosaic Idealize.ShloMosaic.TcCoe Idealize.SL.Sem
open Idealize.ShloMosaic.ValueIdx Cert.Linear
open scoped BigOperators

variable (m : (ℓ : Loc nD τ sig) → Buf (Elt Ideal) ℓ)

/-- Column k's contribution to the output entry (R, C), over the arrays the region finds. -/
def term (c : Dev nD) (R C : Fin 4096) : Fin 4096 → EReal :=
  rowProd (V m c main_v0) (V m c main_arg1) R C

/-- The block product at point t, at (r, s), is block (t % 8)'s partial sum of the entry's terms. -/
theorem block_sum (c : Dev nD) (t : Fin cfg0.N) (r s : Fin 2048) (R C : Fin 4096)
    (hR : R.val = t.val / 16 * 2048 + r.val) (hC : C.val = t.val / 8 % 2 * 2048 + s.val)
    (q : Fin 8) (hq : q.val = t.val % 8) (x0 x1 : Vec Ideal S2048x512 .f32)
    (e0 : x0 = iblk m c 0 t) (e1 : x1 = iblk m c 1 t) :
    ∑ p : Fin 512, x0 (ix2 r p) * x1 (ix2 s p) = part (term m c R C) q := by
  subst e0 e1
  unfold part
  refine Finset.sum_congr rfl fun p _ => ?_
  rw [Blocks.x_apply m c t r p R (col q p) hR (by show q.val * 512 + p.val = _; omega),
    Blocks.w_apply m c t s p C (col q p) hC (by show q.val * 512 + p.val = _; omega)]
  rfl

/-- At the first point of a group the chain's entry is 0 plus the first block's partial sum. -/
theorem chain_first_apply (c : Dev nD) (n : ℕ) (h : n < cfg0.N) (h0 : n % 8 = 0) (r s : Fin 2048) (R C : Fin 4096)
    (hR : R.val = n / 16 * 2048 + r.val) (hC : C.val = n / 8 % 2 * 2048 + s.val) (q : Fin 8) (hq : q.val = n % 8) :
    Chain.chain m c n h (ix2 r s) = 0 + part (term m c R C) q := by
  rw [Chain.chain_first m c n h h0]
  refine (Payloads.step_apply (iblk m c 0 ⟨n, h⟩) (iblk m c 1 ⟨n, h⟩) (k0_pay1 (F := Ideal)) r s).trans ?_
  exact congrArg₂ (· + ·) (Payloads.reset_apply (ix2 r s))
    (block_sum m c ⟨n, h⟩ r s R C hR hC q hq (iblk m c 0 ⟨n, h⟩) (iblk m c 1 ⟨n, h⟩) rfl rfl)

/-- At a later point of the group it grows by that point's block's partial sum. -/
theorem chain_succ_apply (c : Dev nD) (n : ℕ) (h : n + 1 < cfg0.N) (h0 : ¬(n + 1) % 8 = 0) (r s : Fin 2048) (R C : Fin 4096)
    (hR : R.val = (n + 1) / 16 * 2048 + r.val) (hC : C.val = (n + 1) / 8 % 2 * 2048 + s.val)
    (q : Fin 8) (hq : q.val = (n + 1) % 8) :
    Chain.chain m c (n + 1) h (ix2 r s)
      = Chain.chain m c n (Nat.lt_of_succ_lt h) (ix2 r s) + part (term m c R C) q := by
  rw [Chain.chain_succ m c n h h0]
  refine (Payloads.step_apply (iblk m c 0 ⟨n + 1, h⟩) (iblk m c 1 ⟨n + 1, h⟩)
    (Chain.chain m c n (Nat.lt_of_succ_lt h)) r s).trans ?_
  exact congrArg (Chain.chain m c n (Nat.lt_of_succ_lt h) (ix2 r s) + ·)
    (block_sum m c ⟨n + 1, h⟩ r s R C hR hC q hq (iblk m c 0 ⟨n + 1, h⟩) (iblk m c 1 ⟨n + 1, h⟩) rfl rfl)

/-- After the eighth point of group g the chain's entry is the whole sum over the contraction axis. -/
theorem chain_total (c : Dev nD) (g : Fin 4) (r s : Fin 2048) (R C : Fin 4096)
    (hR : R.val = g.val / 2 * 2048 + r.val) (hC : C.val = g.val % 2 * 2048 + s.val)
    (h : 8 * g.val + 7 < cfg0.N) :
    Chain.chain m c (8 * g.val + 7) h (ix2 r s) = ∑ k : Fin 4096, term m c R C k := by
  have hN : cfg0.N = 32 := N_0
  have hg := g.isLt
  have hlt : ∀ q : Fin 8, 8 * g.val + q.val < cfg0.N := fun q => by have := q.isLt; omega
  exact acc_total (term m c R C) (fun q => Chain.chain m c (8 * g.val + q.val) (hlt q) (ix2 r s))
    (chain_first_apply m c (8 * g.val + 0) (hlt ⟨0, by norm_num⟩) (by omega) r s R C (by omega) (by omega)
      ⟨0, by norm_num⟩ (by show 0 = (8 * g.val + 0) % 8; omega))
    (fun n hn => chain_succ_apply m c (8 * g.val + n) (hlt ⟨n + 1, hn⟩) (by omega) r s R C (by omega) (by omega)
      ⟨n + 1, hn⟩ (by show n + 1 = (8 * g.val + n + 1) % 8; omega))

/-- What a last point leaves in the output block at (r, s): the linear layer at the entry's place in the array. -/
theorem flushed_apply (c : Dev nD) (t : Fin cfg0.N) (h7 : t.val % 8 = 7) (r s : Fin 2048) (R C : Fin 4096)
    (hR : R.val = t.val / 16 * 2048 + r.val) (hC : C.val = t.val / 8 % 2 * 2048 + s.val) :
    outsAt0 m c t.val t.isLt (ix2 r s)
      = linear (V m c main_v0) (V m c main_arg1) (V m c main_v1) (ix2 R C) := by
  have hN : cfg0.N = 32 := N_0
  have ht : t.val < 32 := lt_of_lt_of_eq t.isLt hN
  rw [Chain.outsAt_eq m c t.val t.isLt, if_pos h7, linear_apply]
  refine (Payloads.bias_apply (Chain.chain m c t.val t.isLt) (iblk m c 2 t) r s).trans ?_
  rw [Blocks.b_apply m c t s C hC,
    Chain.chain_congr m c t.val (8 * (t.val / 8) + 7) t.isLt (by omega) (by omega),
    chain_total m c ⟨t.val / 8, by omega⟩ r s R C (by show R.val = t.val / 8 / 2 * 2048 + r.val; omega)
      (by show C.val = t.val / 8 % 2 * 2048 + s.val; omega)]
  rfl

end Cert.KernelIdeal.Accumulate

end
-- ==== Proof.KernelValue.lean ====
/-
  The kernel's result, over the extended reals.

  The output array is written back only at the last point of each group of eight, one 2048 × 2048 block per group, and
  the four blocks tile the 4096 × 4096 array. What such a point writes back is that block of the linear layer of the
  arrays the region finds (the accumulation), so the array ends as the linear layer of them. The region finds X as x
  reshaped to [4096, 4096], W as given, and the bias row as the bias reshaped to [1, 4096]; after the region the
  program reshapes the array to [32, 128, 4096]. The three arguments are not written.
-/
import proofs.«122407_j12249246728781_2_alg».proof.Proof.Accumulate
import Idealize.ShloMosaic.Lib.Pipeline.Value
import Idealize.ShloMosaic.Lib.StableHlo.Run
import Idealize.ShloMosaic.Lib.Tactic

noncomputable section

namespace Cert.KernelIdeal.Result

open Cert.KernelIdeal Cert.KernelIdeal.Gen Idealize.ShloMosaic Idealize.ShloMosaic.TcCoe Idealize.SL.Sem
open Idealize.ShloMosaic.ValueIdx Cert.Linear
open Idealize.ShloMosaic.Pipeline (Dat)

variable (m : (ℓ : Loc nD τ sig) → Buf (Elt Ideal) ℓ) (ρ : Dev nD → PrngReg)

/-- The linear layer of the three arrays as the region finds them. -/
abbrev found (c : Dev nD) : S4096x4096.Idx → EReal := linear (V m c main_v0) (V m c main_arg1) (V m c main_v1)

/-- What a flushing point writes back is its block of `found`. -/
theorem flushed_eq (c : Dev nD) (t : Fin cfg0.N) (hf : (cfg0.win 3).flush t = true) :
    (dats m 0 c).flushed 3 t = ((cfg0.win 3).blk t).view.read (Elt Ideal) (found m c) := by
  have h7 : t.val % 8 = 7 := (flush0_3 t).mp hf
  have hN : cfg0.N = 32 := N_0
  have ht : t.val < 32 := lt_of_lt_of_eq t.isLt hN
  show (cfg0.win 3).cut (grid0.coords t) ((dats m 0 c).after 3 t) = _
  rw [after0_3]
  refine funext fun (y : S2048x2048.Idx) => ?_
  obtain ⟨r, s, rfl⟩ : ∃ (r s : Fin 2048), y = ix2 r s := ⟨y 0, y 1, eq_ix2 y⟩
  have hr := r.isLt
  have hs := s.isLt
  have hR : t.val / 16 * 2048 + r.val < 4096 := by omega
  have hC : t.val / 8 % 2 * 2048 + s.val < 4096 := by omega
  rw [View.read_apply, Blocks.out_emb t r s ⟨_, hR⟩ ⟨_, hC⟩ rfl rfl]
  exact Accumulate.flushed_apply m c t h7 r s ⟨_, hR⟩ ⟨_, hC⟩ rfl rfl

/-- An entry of the array is in point t's output block iff each coordinate is in the block's range. -/
theorem mem_block (t : Fin cfg0.N) (i : S4096x4096.Idx) :
    i ∈ ((cfg0.win 3).blk t).view.set ↔ ∀ a : Fin 2, win0_3.index t a * S2048x2048.size a ≤ (i a).val
      ∧ (i a).val < win0_3.index t a * S2048x2048.size a + S2048x2048.size a := by
  show i ∈ ((View.whole main_v2).slice (win0_3.rect t)).set ↔ _
  rw [View.set_slice_whole, Rect.mem_set_unit]
  exact Iff.rfl

/-- Every entry of the array is in the block of some flushing point: the last point of the group of its row-block and
    column-block. -/
theorem covered (i : S4096x4096.Idx) :
    ∃ t : Fin cfg0.N, (cfg0.win 3).flush t = true ∧ i ∈ ((cfg0.win 3).blk t).view.set := by
  have hN : cfg0.N = 32 := N_0
  have h0 : (i 0).val < 4096 := (i 0).isLt
  have h1 : (i 1).val < 4096 := (i 1).isLt
  obtain ⟨t, ht⟩ : ∃ t : Fin cfg0.N, t.val = ((i 0).val / 2048 * 2 + (i 1).val / 2048) * 8 + 7 :=
    ⟨⟨((i 0).val / 2048 * 2 + (i 1).val / 2048) * 8 + 7, by rw [hN]; omega⟩, rfl⟩
  refine ⟨t, (flush0_3 t).mpr (by omega), ?_⟩
  rw [mem_block]
  obtain ⟨-, -, -, -, -, -, e6, e7⟩ := Blocks.place t
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 2048 ≤ (i 1).val ∧ (i 1).val < win0_3.index t (1 : Fin 2) * 2048 + 2048
    omega

/-- So the output array ends as `found`. -/
theorem final (c : Dev nD) : (dats m 0 c).arrAt 3 cfg0.N = found m c :=
  (dats m 0 c).arrAt_eq_of_cover 3 (found m c) (flushed_eq m c) covered

/-- The region finds X as x reshaped, … -/
theorem X_eq (c : Dev nD) : (V m c main_v0 : S4096x4096.Idx → EReal)
    = shapeCast S4096x4096 (m ((c : Thread nD τ).loc main_arg0)) shapeCasts_S32x128x4096_S4096x4096 := by
  show StableHlo.after hostOps0 (fun b => m (c, b)) (Proc.devRef .tc main_v0) = _
  after_results
  rfl

/-- … and the bias row as the bias reshaped. -/
theorem B_eq (c : Dev nD) : (V m c main_v1 : S1x4096.Idx → EReal)
    = shapeCast S1x4096 (m ((c : Thread nD τ).loc main_arg2)) shapeCasts_S4096_S1x4096 := by
  show StableHlo.after hostOps0 (fun b => m (c, b)) (Proc.devRef .tc main_v1) = _
  after_results
  rfl

/-- The program's result as one function of its three arguments. -/
abbrev out (c : Dev nD) : S32x128x4096.Idx → EReal :=
  shapeCast S32x128x4096
    (linear (shapeCast S4096x4096 (m ((c : Thread nD τ).loc main_arg0)) shapeCasts_S32x128x4096_S4096x4096)
      (m ((c : Thread nD τ).loc main_arg1))
      (shapeCast S1x4096 (m ((c : Thread nD τ).loc main_arg2)) shapeCasts_S4096_S1x4096))
    shapeCasts_S4096x4096_S32x128x4096

/-- The reshape after the region, applied to the array the region leaves. -/
theorem tail_eq (c : Dev nD) :
    Pipeline.afterTail₀ cfgs (dats m) 0 (V0 m) [hostOps1] c main_v3 = out m c := by
  unfold Pipeline.afterTail₀
  show StableHlo.after hostOps1 _ (Proc.devRef .tc main_v3) = _
  after_results
  rw [(Pipeline.withArrays_arr spec0 launch0.win.arr_inj c _ _ 3).trans (final m c)]
  unfold found
  rw [X_eq m c, B_eq m c, V_main_arg1 m c]
  rfl

/-- Every weakly fair execution ends with the result at `out` and the arguments as given. -/
theorem run : θ_run defs (onTc (τ := τ) (main (F := Ideal))) ⟨m, fun _ => 0, ρ⟩ fun r => ∀ c : Dev nD,
      r.2.mem ((c.tc : Thread nD τ).loc main_v3) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.LibBiasRow.lean ====
/-
  A vector of n entries laid out as a row [1, n] — two spellings of one array.

  jnp writes `b[None, :]` either as `broadcast_in_dim` with the vector's axis sent to axis 1, or as a reshape
  [n] → [1, n]. Both read, at (0, i), the vector at i: the broadcast because axis 1 of the result is the
  vector's axis and axis 0 is new, the reshape because row-major position 0·n + i is position i. So the two
  rows are equal as arrays, for every n and every element type.
-/
import Idealize.ShloMosaic.PureOps.Ideal
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

/-- A vector [n] broadcast in dimension 1 to a row [1, n] is the vector reshaped to [1, n]. -/
theorem bcastRow_eq_reshape {n : Nat} {α : Type} (x : (⟨1, ![n]⟩ : Shape).Idx → α)
    (hb : (⟨1, ![n]⟩ : Shape).BroadcastsInDim ⟨2, ![1, n]⟩ ![1])
    (hs : (⟨1, ![n]⟩ : Shape).ShapeCasts ⟨2, ![1, n]⟩) :
    broadcastInDim ⟨2, ![1, n]⟩ ![1] hb x = shapeCast ⟨2, ![1, n]⟩ x hs := by
  funext j
  obtain ⟨u, i, rfl⟩ : ∃ (u : Fin 1) (i : Fin n), j = ix2 u i := ⟨j 0, j 1, eq_ix2 j⟩
  rw [shapeCast_a_1a_apply]
  refine broadcastInDim_apply _ hb x _ (ix1 i) (fun a => ?_)
  match a with
  | ⟨0, _⟩ =>
    show i.val = if n = 1 then 0 else i.val
    have := i.isLt
    split <;> omega

end Cert.LibBiasRow

end
-- ==== Proof.Reference.lean ====
/-
  The reference computes the linear layer.

  Its program reshapes x to X of shape [4096, 4096], contracts the second axis of X against the second axis of W (a
  dot_general: entry (n, o) is ∑ k, X (n, k) · W (o, k)), lays the bias out as a row [1, 4096], repeats the row over all
  4096 rows, and adds. Read at an entry that is  (∑ k, X (n, k) · W (o, k)) + bias row (0, o): the linear layer of X, W
  and the bias row — the row written either as a broadcast of the bias vector or as its reshape, one array.
-/
import proofs.«122407_j12249246728781_2_alg».proof.Proof.Gen.ReferenceIdeal.Read
import proofs.«122407_j12249246728781_2_alg».proof.Proof.Linear
import proofs.«122407_j12249246728781_2_alg».proof.Proof.LibBiasRow

noncomputable section

namespace Cert.ReferenceIdeal.RefValue

open Cert.ReferenceIdeal Cert.ReferenceIdeal.Gen Idealize.ShloMosaic Idealize.ShloMosaic.ValueIdx Cert.Linear
open scoped BigOperators

/-- The left factor of the contraction at output entry i and column k is X at (i₀, k); -/
theorem left_idx (i : S4096x4096.Idx) (k : Fin 4096) : Read.lidx_main_v1 i k = ix2 (i 0) k :=
  funext fun a => Fin.ext (by match a with | ⟨0, _⟩ => rfl | ⟨1, _⟩ => rfl)
/-- the right factor is W at (i₁, k); -/
theorem right_idx (i : S4096x4096.Idx) (k : Fin 4096) : Read.ridx_main_v1 i k = ix2 (i 1) k :=
  funext fun a => Fin.ext (by match a with | ⟨0, _⟩ => rfl | ⟨1, _⟩ => rfl)
/-- the repeated row is read at (0, i₁). -/
theorem row_idx (i : S4096x4096.Idx) : Read.idx_main_v3 i = ix2 (0 : Fin 1) (i 1) :=
  funext fun a => Fin.ext (by match a with | ⟨0, _⟩ => rfl | ⟨1, _⟩ => rfl)

/-- The value before the final reshape is the linear layer of the reshaped x, of W and of the bias row. -/
theorem sum_eq (x0 : (⟨S32x128x4096, .f32⟩ : BufTy).Contents (Elt Ideal)) (x1 : (⟨S4096x4096, .f32⟩ : BufTy).Contents (Elt Ideal))
    (x2 : (⟨S4096, .f32⟩ : BufTy).Contents (Elt Ideal)) (hs : S4096.ShapeCasts S1x4096) :
    Read.val_main_v4 (F := Ideal) x0 x1 x2
      = linear (shapeCast S4096x4096 x0 shapeCasts_S32x128x4096_S4096x4096) x1 (shapeCast S1x4096 x2 hs) := by
  funext i
  rw [Read.val_main_v4_apply, Read.val_main_v1_apply, Read.val_main_v3_apply, row_idx]
  unfold Read.val_main_v2 Read.val_main_v0
  rw [Cert.LibBiasRow.bcastRow_eq_reshape x2 bcast_S4096_S1x4096_1 hs]
  simp only [left_idx, right_idx]
  rfl

end Cert.ReferenceIdeal.RefValue

end
-- ==== Proof.lean ====
/-
  A dense linear layer, y = x · Wᵀ + bias, computed by a tiled kernel and by a plain reference: the two agree over the
  extended reals.

  x has shape [32, 128, 4096] and is read as X of shape [4096, 4096]; W has shape [4096, 4096]; the bias has 4096 entries.
  Both programs compute, for every n and o,
        y (n, o) = (∑ k < 4096, X (n, k) · W (o, k)) + bias (o),
  and return y reshaped to [32, 128, 4096].

  The kernel works on 2048 × 2048 output blocks and walks the contraction axis in eight blocks of 512 columns: at the
  first it sets the output block to 0, at each it adds the block product of 2048 rows of X against 2048 rows of W over
  those 512 columns (the operands rounded to bf16, which is the identity on the extended reals), and at the last it adds
  the bias row. The reference contracts all 4096 columns at once and adds the bias. The two are equal because a sum over
  4096 columns is the sum of its eight block sums, whatever the order and grouping: associativity and commutativity of +
  and 0 + a = a, which hold for every extended real. No input has to be finite for that, so the precondition is not used.

  The modules: Linear (the layer as one function, and the block-sum law), Payloads (the body's three stored values at an
  entry), Cases (what one run of the body leaves, per control case), Blocks (where each point's blocks sit), Chain (the
  output block after each point), Accumulate (its value when written back), KernelValue (the kernel's result),
  Reference (the reference's result).
-/
import proofs.«122407_j12249246728781_2_alg».proof.Defs
import proofs.«122407_j12249246728781_2_alg».proof.Proof.Gen.Kernel
import proofs.«122407_j12249246728781_2_alg».proof.Proof.Gen.Kernel.Frame
import proofs.«122407_j12249246728781_2_alg».proof.Proof.Gen.KernelIdeal
import proofs.«122407_j12249246728781_2_alg».proof.Proof.Gen.KernelIdeal.Frame
import proofs.«122407_j12249246728781_2_alg».proof.Proof.Gen.ReferenceIdeal
import proofs.«122407_j12249246728781_2_alg».proof.Proof.Gen.ReferenceIdeal.Run
import proofs.«122407_j12249246728781_2_alg».proof.Proof.Gen.ReferenceIdeal.Read
import proofs.«122407_j12249246728781_2_alg».proof.Proof.Gen.Pre_finite_inputs
import proofs.«122407_j12249246728781_2_alg».proof.Proof.KernelValue
import proofs.«122407_j12249246728781_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From arguments that agree, the kernel ends at the linear layer of its arguments reshaped (the accumulation over the
    eight blocks) and the reference at the same function of its own (one contraction): equal results. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq]
  unfold Cert.ReferenceIdeal.Read.val_main_v5
  rw [Cert.ReferenceIdeal.RefValue.sum_eq _ _ _ Cert.KernelIdeal.Facts₀.shapeCasts_S4096_S1x4096,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
